-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x128 .f32) (main_arg1 : IVec S1600000 32) (main_arg2 : IVec S1600000 32) (main_arg3 : FVec F S128x64 .f32) (main_arg4 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x64 : Shape := ⟨2, ![128, 64]⟩
abbrev S64x64 : Shape := ⟨2, ![64, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 34
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64x64, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64x64 : Shape := ⟨2, ![64, 64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64x64, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S100000x64, .i1⟩
  | .hbm, ⟨22, _⟩ => ⟨S_, .f32⟩
  | .hbm, ⟨23, _⟩ => ⟨S100000x64, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .i1⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunAt.lean ====
/-
  The idealized kernel's run with its result kept.

  @main is three pipelined regions with a stretch of host operations between consecutive ones. The buffer
  contents at the six boundaries form a fold `W0 … W5` from the launch memory: a region replaces its arrays
  by what its write-backs leave, a host stretch applies its operations. Every weakly fair execution ends with
  each unscoped buffer at `W5`; here that is read at the result buffer as well as at the five arguments.
-/
import proofs.«125440_j87892210746076_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_last : θ_run defs (onTc (τ := τ) (main (F := F))) ⟨m, fun _ => 0, ρ⟩ (fun r => ∀ c : Dev nD,
      r.2.mem ((c.tc : Thread nD τ).loc main_v22) = V5 m ρ c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Hand

end
-- ==== Proof.Slope.lean ====
/-
  The activation both programs apply, on one extended real: `a` where `a ≥ 0`, the fixed slope times `a`
  elsewhere (the comparison and the product are the ideal instance's; the slope and the zero are the binary
  values of their words, the same words in both programs, never evaluated).
-/
import Idealize.ShloMosaic.PureOps.Ideal
import Idealize.ShloMosaic.Lib.ValueIdx

noncomputable section

namespace Cert.KernelIdeal.Hand

open Idealize.ShloMosaic

/-- Offsets `![0, 0]` are the zero offsets. -/
theorem hz : (![0, 0] : Fin 2 → Nat) = fun _ => 0 := funext fun a => by fin_cases a <;> rfl

/-- The activation on one value. -/
def leaky1 (a : Ideal .f32) : Ideal .f32 :=
  Scalar.select (FloatOps.cmpf .oge a (FloatOps.ofBits .f32 0x00000000#32)) a
    (FloatOps.mulf (FloatOps.ofBits .f32 0x3E6AAAAB#32) a)

/-- The activation on an array, index by index. -/
def leaky {s : Shape} (A : s.Idx → Ideal .f32) : s.Idx → Ideal .f32 := fun i => leaky1 (A i)

/-- A whole-array matrix product on the extended reals: entry (r, c) is `∑ k, A (r, k) * w (k, c)`. -/
def prod {M K N : Nat} (A : (⟨2, ![M, K]⟩ : Shape).Idx → EReal) (w : (⟨2, ![K, N]⟩ : Shape).Idx → EReal) :
    (⟨2, ![M, N]⟩ : Shape).Idx → EReal :=
  fun i => ∑ k : Fin K, A (ValueIdx.ix2 (i 0) k) * w (ValueIdx.ix2 k (i 1))

end Cert.KernelIdeal.Hand

end
-- ==== Proof.LibPlainDot.lean ====
/-
  A plain matrix product at the ideal values, read at an index.

  For the dimension numbers `DotDims.plain M K N` (rows × contraction times contraction × columns, no batch
  axis) the element (r, c) of the product is `∑ k : Fin K, l (r, k) * r (k, c)` on the extended reals, both
  for the host's `dot_general` and for a `tpu.matmul` into the zero accumulator: no rounding, no order of
  summation and no tiling is left in either.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} {φ₁ φ₂ : FTy}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index is the sum over `k : Fin K` of row entry times column entry. -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col _ _)
  exact congrArg₂ (· * ·) (congrArg l el) (congrArg r er)

/-- The host's `dot_general` of plain dimension numbers, at an index. -/
theorem hostDot_apply (l : FVec Ideal ⟨2, ![M, K]⟩ φ₁) (r : FVec Ideal ⟨2, ![K, N]⟩ φ₂)
    (j : (⟨2, ![M, N]⟩ : Shape).Idx) :
    Host.dotGeneral (F := Ideal) (DotDims.plain M K N) none l r j = ∑ k : Fin K, l (ix2 (j 0) k) * r (ix2 k (j 1)) := by
  simp only [Host.dotGeneral]
  rw [Ideal.dotGeneral_apply]
  exact sum_contr l r j

/-- A `tpu.matmul` of plain dimension numbers into the zero accumulator, at an index. -/
theorem matmulZero_apply (l : FVec Ideal ⟨2, ![M, K]⟩ φ₁) (r : FVec Ideal ⟨2, ![K, N]⟩ φ₂)
    (j : (⟨2, ![M, N]⟩ : Shape).Idx) :
    matmul (F := Ideal) (DotDims.plain M K N) none l r (constant ⟨2, ![M, N]⟩ .f32 0x00000000#32) j
      = ∑ k : Fin K, l (ix2 (j 0) k) * r (ix2 k (j 1)) := by
  simp only [matmul]
  rw [Ideal.matmul_constant_zero_apply]
  exact sum_contr l r j

end Idealize.ShloMosaic.PlainDot

end
-- ==== Proof.Region0.lean ====
/-
  The first region (the first linear layer), from any entry contents `V`: its result
  array ends holding the matrix product of its operand array with the weight array, entry by entry.

  The grid has 20 points; point `t` reads rows `5000 t … 5000 t + 4999` of the operand and the whole weight
  array, and writes the same rows of the result: entry (r, c) of the written block is the sum over `k` of
  the operand's entry (5000 t + r, k) times the weight (k, c). The written blocks tile the result array and
  each is the block of one whole-array function.
-/
import proofs.«125440_j87892210746076_1_alg».proof.Proof.Gen.KernelIdeal.Frame
import proofs.«125440_j87892210746076_1_alg».proof.Proof.Slope
import proofs.«125440_j87892210746076_1_alg».proof.Proof.LibPlainDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value at an entry: the casts to bf16 are the identity on the ideal values, and the product
    into the zero accumulator is the plain sum. -/
theorem pay0_apply (x0 : Vec Ideal S5000x128 .f32) (x1 : Vec Ideal S128x64 .f32) (j : S5000x64.Idx) :
    k0_pay1 x0 x1 j = ∑ k : Fin 128, x0 (ix2 (j 0) k) * x1 (ix2 k (j 1)) := by
  unfold k0_pay1
  show matmul (F := Ideal) (DotDims.plain 5000 128 64) none _ _ (constant ⟨2, ![5000, 64]⟩ .f32 0x00000000#32) j = _
  rw [PlainDot.matmulZero_apply]
  rfl

/-- The block indices at point `t`: the operand's and the result's are `(t, 0)`, the weights' `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point `t`, at an entry, is the operand array `5000 t` rows further down. -/
theorem iblk0_0_apply (c : Dev nD) (t : Fin cfg0.N) (x : S5000x128.Idx) (y : S100000x128.Idx)
    (h0 : (y 0).val = 5000 * t.val + (x 0).val) (h1 : (y 1).val = (x 1).val) :
    (iblk0 V c 0 t : Vec Ideal S5000x128 .f32) x = (V c main_arg0 : S100000x128.Idx → EReal) y := by
  obtain ⟨e0, e1, -, -, -, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (x 0).val = (y 0).val; omega
  | ⟨1, _⟩ => show win0_0.index t (1 : Fin 2) * 128 + 1 * (x 1).val = (y 1).val; omega

/-- The weights' block at every point is the weight array. -/
theorem iblk0_1_apply (c : Dev nD) (t : Fin cfg0.N) (x y : S128x64.Idx)
    (h0 : (y 0).val = (x 0).val) (h1 : (y 1).val = (x 1).val) :
    (iblk0 V c 1 t : Vec Ideal S128x64 .f32) x = (V c main_arg3 : S128x64.Idx → EReal) y := by
  obtain ⟨-, -, e2, e3, -, -⟩ := idx0 t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * (x 0).val = (y 0).val; omega
  | ⟨1, _⟩ => show win0_1.index t (1 : Fin 2) * 64 + 1 * (x 1).val = (y 1).val; omega

/-- What point `t` writes back is block `t` of the product of the operand array with the weights. -/
theorem flushed0_eq (c : Dev nD) (t : Fin cfg0.N) :
    (dat0 V c).flushed 2 t
      = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idx0 t
  funext j
  rw [View.read_apply]
  show k0_pay1 (iblk0 V c 0 t) (iblk0 V c 1 t) j
    = ∑ k : Fin 128, @HMul.hMul EReal EReal EReal instHMul (V c main_arg0 (ix2 ((((cfg0.win 2).blk t).view.emb j) 0) k))
        (V c main_arg3 (ix2 k ((((cfg0.win 2).blk t).view.emb j) 1)))
  refine (pay0_apply (iblk0 V c 0 t) (iblk0 V c 1 t) j).trans (Finset.sum_congr rfl fun k _ => ?_)
  refine congrArg₂ (· * ·) ?_ ?_
  · refine iblk0_0_apply V c t (ix2 (j 0) k) (ix2 ((((cfg0.win 2).blk t).view.emb j) 0) k) ?_ rfl
    show win0_2.index t (0 : Fin 2) * 5000 + 1 * (j 0).val = 5000 * t.val + (j 0).val
    omega
  · refine iblk0_1_apply V c t (ix2 k (j 1)) (ix2 k ((((cfg0.win 2).blk t).view.emb j) 1)) rfl ?_
    show win0_2.index t (1 : Fin 2) * 64 + 1 * (j 1).val = (j 1).val
    omega

/-- An index of the result array is in point `t`'s block iff each coordinate is in the block's range. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Row `r` of the result array is written by point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have hv : t.val = (i 0).val / 5000 := rfl
  refine ⟨t, flush0_2 t, ?_⟩
  rw [mem_blk0]
  obtain ⟨-, -, -, -, e4, e5⟩ := idx0 t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region, as one function of the arrays the region found. -/
theorem final0 (c : Dev nD) :
    (dat0 V c).arrAt 2 cfg0.N = prod (V c main_arg0) (V c main_arg3) :=
  (dat0 V c).arrAt_eq_of_cover 2 _ (fun t _ => flushed0_eq V c t) cover0

end Cert.KernelIdeal.Hand

end
-- ==== Proof.Region1.lean ====
/-
  The second region (the activation followed by the second linear layer), from any entry contents `V`: its result
  array ends holding the matrix product of the activation of its operand array with the weight array, entry by entry.

  The grid has 20 points; point `t` reads rows `5000 t … 5000 t + 4999` of the operand and the whole weight
  array, and writes the same rows of the result: entry (r, c) of the written block is the sum over `k` of
  the activation of the operand's entry (5000 t + r, k) times the weight (k, c). The written blocks tile the result array and
  each is the block of one whole-array function.
-/
import proofs.«125440_j87892210746076_1_alg».proof.Proof.Gen.KernelIdeal.Frame
import proofs.«125440_j87892210746076_1_alg».proof.Proof.Slope
import proofs.«125440_j87892210746076_1_alg».proof.Proof.LibPlainDot
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's stored value at an entry: the casts to bf16 are the identity on the ideal values, and the product
    into the zero accumulator is the plain sum. -/
theorem pay1_apply (x0 : Vec Ideal S5000x64 .f32) (x1 : Vec Ideal S64x64 .f32) (j : S5000x64.Idx) :
    k1_pay1 x0 x1 j = ∑ k : Fin 64, leaky1 (x0 (ix2 (j 0) k)) * x1 (ix2 k (j 1)) := by
  unfold k1_pay1
  simp only [shapeCast_self]
  show matmul (F := Ideal) (DotDims.plain 5000 64 64) none _ _ (constant ⟨2, ![5000, 64]⟩ .f32 0x00000000#32) j = _
  rw [PlainDot.matmulZero_apply]
  rfl

/-- The block indices at point `t`: the operand's and the result's are `(t, 0)`, the weights' `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The operand's block at point `t`, at an entry, is the operand array `5000 t` rows further down. -/
theorem iblk1_0_apply (c : Dev nD) (t : Fin cfg1.N) (x : S5000x64.Idx) (y : S100000x64.Idx)
    (h0 : (y 0).val = 5000 * t.val + (x 0).val) (h1 : (y 1).val = (x 1).val) :
    (iblk1 V c 0 t : Vec Ideal S5000x64 .f32) x = (V c main_v10 : S100000x64.Idx → EReal) y := by
  obtain ⟨e0, e1, -, -, -, -⟩ := idx1 t
  unfold iblk1
  rw [View.read_apply]
  show V c main_v10 _ = V c main_v10 _
  refine congrArg (V c main_v10) ?_
  funext a
  apply Fin.ext
  match a with
  | ⟨0, _⟩ => show win1_0.index t (0 : Fin 2) * 5000 + 1 * (x 0).val = (y 0).val; omega
  | ⟨1, _⟩ => show win1_0.index t (1 : Fin 2) * 64 + 1 * (x 1).val = (y 1).val; omega

/-- The weights' block at every point is the weight array. -/
theorem iblk1_1_apply (c : Dev nD) (t : Fin cfg1.N) (x y : S64x64.Idx)
    (h0 : (y 0).val = (x 0).val) (h1 : (y 1).val = (x 1).val) :
    (iblk1 V c 1 t : Vec Ideal S64x64 .f32) x = (V c main_arg4 : S64x64.Idx → EReal) y := by
  obtain ⟨-, -, e2, e3, -, -⟩ := idx1 t
  unfold iblk1
  rw [View.read_apply]
  show V c main_arg4 _ = V c main_arg4 _
  refine congrArg (V c main_arg4) ?_
  funext a
  apply Fin.ext
  match a with
  | ⟨0, _⟩ => show win1_1.index t (0 : Fin 2) * 64 + 1 * (x 0).val = (y 0).val; omega
  | ⟨1, _⟩ => show win1_1.index t (1 : Fin 2) * 64 + 1 * (x 1).val = (y 1).val; omega

/-- What point `t` writes back is block `t` of the product of the activated operand array with the weights. -/
theorem flushed1_eq (c : Dev nD) (t : Fin cfg1.N) :
    (dat1 V c).flushed 2 t
      = ((cfg1.win 2).blk t).view.read (Elt Ideal) (prod (leaky (V c main_v10)) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨-, -, -, -, e4, e5⟩ := idx1 t
  funext j
  rw [View.read_apply]
  show k1_pay1 (iblk1 V c 0 t) (iblk1 V c 1 t) j
    = ∑ k : Fin 64, leaky1 (V c main_v10 (ix2 ((((cfg1.win 2).blk t).view.emb j) 0) k))
        * V c main_arg4 (ix2 k ((((cfg1.win 2).blk t).view.emb j) 1))
  refine (pay1_apply (iblk1 V c 0 t) (iblk1 V c 1 t) j).trans (Finset.sum_congr rfl fun k _ => ?_)
  refine congrArg₂ (· * ·) (congrArg leaky1 ?_) ?_
  · refine iblk1_0_apply V c t (ix2 (j 0) k) (ix2 ((((cfg1.win 2).blk t).view.emb j) 0) k) ?_ rfl
    show win1_2.index t (0 : Fin 2) * 5000 + 1 * (j 0).val = 5000 * t.val + (j 0).val
    omega
  · refine iblk1_1_apply V c t (ix2 k (j 1)) (ix2 k ((((cfg1.win 2).blk t).view.emb j) 1)) rfl ?_
    show win1_2.index t (1 : Fin 2) * 64 + 1 * (j 1).val = (j 1).val
    omega

/-- An index of the result array is in point `t`'s block iff each coordinate is in the block's range. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v11).slice (win1_2.rect t)).set ↔ _
  rw [View.set_slice_whole, Rect.mem_set_unit]
  exact Iff.rfl

/-- Row `r` of the result array is written by point `r / 5000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have hv : t.val = (i 0).val / 5000 := rfl
  refine ⟨t, flush1_2 t, ?_⟩
  rw [mem_blk1]
  obtain ⟨-, -, -, -, e4, e5⟩ := idx1 t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region, as one function of the arrays the region found. -/
theorem final1 (c : Dev nD) :
    (dat1 V c).arrAt 2 cfg1.N = prod (leaky (V c main_v10)) (V c main_arg4) :=
  (dat1 V c).arrAt_eq_of_cover 2 _ (fun t _ => flushed1_eq V c t) cover1

end Cert.KernelIdeal.Hand

end
-- ==== Proof.Region2.lean ====
/-
  The third region (the final activation), from any entry contents `V`: its result array ends holding the
  activation of its operand array, index by index.

  The grid has 20 points; point `t` reads rows `5000 t … 5000 t + 4999` of the operand and writes the same
  rows of the result, so the written blocks tile the result array and each is the block of one whole-array
  function.
-/
import proofs.«125440_j87892210746076_1_alg».proof.Proof.Gen.KernelIdeal.Frame
import proofs.«125440_j87892210746076_1_alg».proof.Proof.Slope
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's stored value is the activation of its loaded block, entry by entry. -/
theorem pay2_apply (x0 : Vec Ideal S5000x64 .f32) (j : S5000x64.Idx) : k2_pay1 x0 j = leaky1 (x0 j) := by
  unfold k2_pay1
  simp only [shapeCast_self]
  rfl

/-- Both windows' block index at point `t` is `(t, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- What point `t` writes back is block `t` of the activation of the operand array. -/
theorem flushed2_eq (c : Dev nD) (t : Fin cfg2.N) :
    (dat2 V c).flushed 1 t = ((cfg2.win 1).blk t).view.read (Elt Ideal) (leaky (V c main_v21)) := by
  show (cfg2.win 1).cut (grid2.coords t) ((dat2 V c).after 1 t) = _
  rw [after2_1]
  unfold out2_1
  rw [View.canon_unit_zero hz]
  simp only [View.ld_unit_zero (S := S5000x64) hz]
  funext j
  rw [View.read_apply]
  show k2_pay1 (iblk2 V c 0 t) j = leaky1 (V c main_v21 (((cfg2.win 1).blk t).view.emb j))
  refine (pay2_apply (iblk2 V c 0 t) j).trans (congrArg leaky1 ?_)
  unfold iblk2
  rw [View.read_apply]
  show V c main_v21 (((cfg2.win 0).blk t).view.emb j) = V c main_v21 (((cfg2.win 1).blk t).view.emb j)
  refine congrArg (V c main_v21) ?_
  obtain ⟨e0, e1, e2, e3⟩ := idx2 t
  funext a
  apply Fin.ext
  match a with
  | ⟨0, _⟩ => show win2_0.index t (0 : Fin 2) * 5000 + 1 * (j 0).val = win2_1.index t (0 : Fin 2) * 5000 + 1 * (j 0).val; omega
  | ⟨1, _⟩ => show win2_0.index t (1 : Fin 2) * 64 + 1 * (j 1).val = win2_1.index t (1 : Fin 2) * 64 + 1 * (j 1).val; omega

/-- An index of the result array is in point `t`'s block iff each coordinate is in the block's range. -/
theorem mem_blk2 (t : Fin cfg2.N) (i : S100000x64.Idx) :
    i ∈ ((cfg2.win 1).blk t).view.set ↔ ∀ a : Fin 2, win2_1.index t a * S5000x64.size a ≤ (i a).val
      ∧ (i a).val < win2_1.index t a * S5000x64.size a + S5000x64.size a := by
  show i ∈ ((View.whole main_v22).slice (win2_1.rect t)).set ↔ _
  rw [View.set_slice_whole, Rect.mem_set_unit]
  exact Iff.rfl

/-- Row `r` of the result array is written by point `r / 5000`. -/
theorem cover2 (i : S100000x64.Idx) :
    ∃ t : Fin cfg2.N, (cfg2.win 1).flush t = true ∧ i ∈ ((cfg2.win 1).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have hv : t.val = (i 0).val / 5000 := rfl
  refine ⟨t, flush2_1 t, ?_⟩
  rw [mem_blk2]
  obtain ⟨e0, e1, e2, e3⟩ := idx2 t
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

/-- The result array after the region: the activation of the operand array as the region found it. -/
theorem final2 (c : Dev nD) : (dat2 V c).arrAt 1 cfg2.N = leaky (V c main_v21) :=
  (dat2 V c).arrAt_eq_of_cover 1 (leaky (V c main_v21)) (fun t _ => flushed2_eq V c t) cover2

end Cert.KernelIdeal.Hand

end
-- ==== Proof.Fold.lean ====
/-
  The idealized kernel's result as one function of its arguments.

  Between consecutive regions @main gathers the rows of the previous layer's output named by the edge sources
  (a negative index counted from the end) and adds each into the row named by the edge's destination, starting
  from zeros: one function `agg` of the layer's output and the two index arrays, the same thirteen operations
  in both stretches. It is never opened: the reference applies the same function.

  Walking the boundary contents back from the result buffer:
    result      = activation of the second aggregation                         (third region)
    second aggregation = agg of the second layer's output                      (second stretch)
    second layer's output = (activation of the first aggregation) · w2         (second region)
    first aggregation  = agg of the first layer's output                       (first stretch)
    first layer's output = feat · w1                                           (first region)
  with the index arrays and the weights read back to the launch memory, no operation writing them.
-/
import proofs.«125440_j87892210746076_1_alg».proof.Proof.RunAt
import proofs.«125440_j87892210746076_1_alg».proof.Proof.Region0
import proofs.«125440_j87892210746076_1_alg».proof.Proof.Region1
import proofs.«125440_j87892210746076_1_alg».proof.Proof.Region2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-- The aggregation over the edges: rows of `h` gathered at the (wrapped) sources, added into the rows named by
    the destinations, from zeros. -/
def agg (h : FVec Ideal S100000x64 .f32) (s d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The whole computation on the argument arrays. -/
def spec (x0 : FVec Ideal S100000x128 .f32) (x1 x2 : IVec S1600000 32) (x3 : FVec Ideal S128x64 .f32) (x4 : FVec Ideal S64x64 .f32) :
    FVec Ideal S100000x64 .f32 :=
  leaky (agg (prod (leaky (agg (prod x0 x3) x1 x2)) x4) x1 x2)

section Stretches
variable (W : Valuation τ sig (Elt Ideal))

/-- The first stretch leaves the aggregation of the first layer's output. -/
theorem stretch1 : StableHlo.after hostOps1 W (Proc.devRef .tc main_v10)
    = agg (W (Proc.devRef .tc main_v0)) (W (Proc.devRef .tc main_arg1)) (W (Proc.devRef .tc main_arg2)) := by
  after_results_simp
  rfl

/-- The second stretch leaves the aggregation of the second layer's output. -/
theorem stretch2 : StableHlo.after hostOps2 W (Proc.devRef .tc main_v21)
    = agg (W (Proc.devRef .tc main_v11)) (W (Proc.devRef .tc main_arg1)) (W (Proc.devRef .tc main_arg2)) := by
  after_results_simp
  rfl

/-- Neither stretch writes the index arrays or the second weight array. -/
theorem stretch1_arg1 : StableHlo.after hostOps1 W (Proc.devRef .tc main_arg1) = W (Proc.devRef .tc main_arg1) := by
  after_results
theorem stretch1_arg2 : StableHlo.after hostOps1 W (Proc.devRef .tc main_arg2) = W (Proc.devRef .tc main_arg2) := by
  after_results
theorem stretch1_arg4 : StableHlo.after hostOps1 W (Proc.devRef .tc main_arg4) = W (Proc.devRef .tc main_arg4) := by
  after_results

end Stretches

variable (m : (ℓ : Loc nD τ sig) → Buf (Elt Ideal) ℓ) (ρ : Dev nD → PrngReg)

/-- After the first region the first layer's output is `feat · w1`. -/
theorem at1_v0 (c : Dev nD) : W1 m ρ c (Proc.devRef .tc main_v0)
    = prod (m ((c : Thread nD τ).loc main_arg0)) (m ((c : Thread nD τ).loc main_arg3)) :=
  (W1_arr m ρ c 2).trans (final0 (V0 m ρ) c)

theorem at1_arg1 (c : Dev nD) : W1 m ρ c (Proc.devRef .tc main_arg1) = m ((c : Thread nD τ).loc main_arg1) :=
  W1_of_ne m ρ c main_arg1 (by decide)
theorem at1_arg2 (c : Dev nD) : W1 m ρ c (Proc.devRef .tc main_arg2) = m ((c : Thread nD τ).loc main_arg2) :=
  W1_of_ne m ρ c main_arg2 (by decide)
theorem at1_arg4 (c : Dev nD) : W1 m ρ c (Proc.devRef .tc main_arg4) = m ((c : Thread nD τ).loc main_arg4) :=
  W1_of_ne m ρ c main_arg4 (by decide)

/-- After the first stretch: the first aggregation, and the arrays the later segments read. -/
theorem at2_v10 (c : Dev nD) : W2 m ρ c (Proc.devRef .tc main_v10)
    = agg (prod (m ((c : Thread nD τ).loc main_arg0)) (m ((c : Thread nD τ).loc main_arg3)))
        (m ((c : Thread nD τ).loc main_arg1)) (m ((c : Thread nD τ).loc main_arg2)) := by
  show StableHlo.after hostOps1 (W1 m ρ c) (Proc.devRef .tc main_v10) = _
  rw [stretch1, at1_v0, at1_arg1, at1_arg2]

theorem at2_arg1 (c : Dev nD) : W2 m ρ c (Proc.devRef .tc main_arg1) = m ((c : Thread nD τ).loc main_arg1) :=
  (stretch1_arg1 (W1 m ρ c)).trans (at1_arg1 m ρ c)
theorem at2_arg2 (c : Dev nD) : W2 m ρ c (Proc.devRef .tc main_arg2) = m ((c : Thread nD τ).loc main_arg2) :=
  (stretch1_arg2 (W1 m ρ c)).trans (at1_arg2 m ρ c)
theorem at2_arg4 (c : Dev nD) : W2 m ρ c (Proc.devRef .tc main_arg4) = m ((c : Thread nD τ).loc main_arg4) :=
  (stretch1_arg4 (W1 m ρ c)).trans (at1_arg4 m ρ c)

/-- After the second region: the second layer's output. -/
theorem at3_v11 (c : Dev nD) : W3 m ρ c (Proc.devRef .tc main_v11)
    = prod (leaky (agg (prod (m ((c : Thread nD τ).loc main_arg0)) (m ((c : Thread nD τ).loc main_arg3)))
        (m ((c : Thread nD τ).loc main_arg1)) (m ((c : Thread nD τ).loc main_arg2)))) (m ((c : Thread nD τ).loc main_arg4)) := by
  refine (W3_arr m ρ c 2).trans ((final1 (V2 m ρ) c).trans ?_)
  show prod (leaky (W2 m ρ c (Proc.devRef .tc main_v10))) (W2 m ρ c (Proc.devRef .tc main_arg4)) = _
  rw [at2_v10, at2_arg4]

theorem at3_arg1 (c : Dev nD) : W3 m ρ c (Proc.devRef .tc main_arg1) = m ((c : Thread nD τ).loc main_arg1) :=
  (W3_of_ne m ρ c main_arg1 (by decide)).trans (at2_arg1 m ρ c)
theorem at3_arg2 (c : Dev nD) : W3 m ρ c (Proc.devRef .tc main_arg2) = m ((c : Thread nD τ).loc main_arg2) :=
  (W3_of_ne m ρ c main_arg2 (by decide)).trans (at2_arg2 m ρ c)

/-- The result buffer at the last boundary is the whole computation on the launch contents of the arguments. -/
theorem last_eq (c : Dev nD) : V5 m ρ c main_v22
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  refine (W5_arr m ρ c 1).trans ((final2 (V4 m ρ) c).trans ?_)
  show leaky (StableHlo.after hostOps2 (W3 m ρ c) (Proc.devRef .tc main_v21)) = _
  rw [stretch2, at3_v11, at3_arg1, at3_arg2]
  rfl

/-- The idealized kernel's run, read: the result at `spec` of the arguments, the arguments unchanged. -/
theorem run : θ_run defs (onTc (τ := τ) (main (F := Ideal))) ⟨m, fun _ => 0, ρ⟩ (fun r => ∀ c : Dev nD,
      r.2.mem ((c.tc : Thread nD τ).loc main_v22)
        = spec (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (last_eq m ρ c), (h c).2⟩) (run_last m ρ)

end Cert.KernelIdeal.Hand

end
-- ==== Proof.RefSpec.lean ====
/-
  The reference's result as the same composition.

  Its last stage is the activation of the second aggregation; the aggregation is the thirteen host operations
  between the layers taken as one function `aggR` (never opened); each `dot_general` at the ideal values is the
  plain whole-array product; each `where(x ≥ 0, x, slope · x)` is the activation, index by index.
-/
import proofs.«125440_j87892210746076_1_alg».proof.Proof.Gen.ReferenceIdeal.Read
import proofs.«125440_j87892210746076_1_alg».proof.Proof.Slope
import proofs.«125440_j87892210746076_1_alg».proof.Proof.LibPlainDot

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (leaky leaky1 prod)

/-- The aggregation over the edges, as the reference spells it. -/
def aggR (h : FVec Ideal S100000x64 .f32) (s d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

variable (x0 : FVec Ideal S100000x128 .f32) (x1 x2 : IVec S1600000 32) (x3 : FVec Ideal S128x64 .f32) (x4 : FVec Ideal S64x64 .f32)

/-- The first linear layer is the plain product. -/
theorem lin1 : val_main_v0 (F := Ideal) x0 x3 = prod x0 x3 := by
  funext i
  unfold val_main_v0
  exact PlainDot.hostDot_apply (M := 100000) (K := 128) (N := 64) x0 x3 i

/-- The first aggregation. -/
theorem agg1 : val_main_v10 (F := Ideal) x0 x1 x2 x3 = aggR (val_main_v0 (F := Ideal) x0 x3) x1 x2 := rfl

/-- The first activation. -/
theorem act1 : val_main_v15 (F := Ideal) x0 x1 x2 x3 = leaky (val_main_v10 (F := Ideal) x0 x1 x2 x3) := by
  funext i
  rw [val_main_v15_apply, val_main_v12_apply, val_main_v14_apply, val_main_v11_apply, val_main_v13_apply,
    val_main_cst_1_apply, val_main_cst_2_apply]
  rfl

/-- The second linear layer is the plain product. -/
theorem lin2 : val_main_v16 (F := Ideal) x0 x1 x2 x3 x4 = prod (val_main_v15 (F := Ideal) x0 x1 x2 x3) x4 := by
  funext i
  unfold val_main_v16
  exact PlainDot.hostDot_apply (M := 100000) (K := 64) (N := 64) (val_main_v15 (F := Ideal) x0 x1 x2 x3) x4 i

/-- The second aggregation. -/
theorem agg2 : val_main_v26 (F := Ideal) x0 x1 x2 x3 x4 = aggR (val_main_v16 (F := Ideal) x0 x1 x2 x3 x4) x1 x2 := rfl

/-- The second activation. -/
theorem act2 : val_main_v31 (F := Ideal) x0 x1 x2 x3 x4 = leaky (val_main_v26 (F := Ideal) x0 x1 x2 x3 x4) := by
  funext i
  rw [val_main_v31_apply, val_main_v28_apply, val_main_v30_apply, val_main_v27_apply, val_main_v29_apply,
    val_main_cst_6_apply, val_main_cst_7_apply]
  rfl

/-- The reference's last stage, composed. -/
theorem result_eq : val_main_v31 (F := Ideal) x0 x1 x2 x3 x4
    = leaky (aggR (prod (leaky (aggR (prod x0 x3) x1 x2)) x4) x1 x2) := by
  rw [act2, agg2, lin2, act1, agg1, lin1]

end Cert.ReferenceIdeal.Hand

end
-- ==== Proof.Bridge.lean ====
/-
  The two programs compute one function of the arguments.

  The aggregation between the layers is spelt with each program's own dimension records; the records hold the
  same dimension numbers, so the two spellings are one function. With that, the reference's composed last stage
  is the kernel's `spec`.
-/
import proofs.«125440_j87892210746076_1_alg».proof.Proof.Fold
import proofs.«125440_j87892210746076_1_alg».proof.Proof.RefSpec

set_option maxRecDepth 16384

noncomputable section

namespace Cert.Proof.Bridge

open Idealize.ShloMosaic

/-- The aggregation is the same function in both programs. -/
theorem agg_eq : Cert.ReferenceIdeal.Hand.aggR = Cert.KernelIdeal.Hand.agg := rfl

/-- The reference's last stage is the kernel's function of the same arrays. -/
theorem ref_eq_spec (x0 : FVec Ideal ⟨2, ![100000, 128]⟩ .f32) (x1 x2 : IVec ⟨1, ![1600000]⟩ 32)
    (x3 : FVec Ideal ⟨2, ![128, 64]⟩ .f32) (x4 : FVec Ideal ⟨2, ![64, 64]⟩ .f32) :
    Cert.ReferenceIdeal.Read.val_main_v31 (F := Ideal) x0 x1 x2 x3 x4 = Cert.KernelIdeal.Hand.spec x0 x1 x2 x3 x4 := by
  rw [Cert.ReferenceIdeal.Hand.result_eq, agg_eq]
  rfl

end Cert.Proof.Bridge

end
-- ==== Proof.lean ====
/-
  Two linear layers over a graph, each followed by a sum over the incoming edges and an activation:
      h1  = feat · w1                      agg1 = Σ over edges (s → d) of h1[s] into row d
      h2  = act(agg1) · w2                 agg2 = Σ over edges (s → d) of h2[s] into row d
      out = act(agg2),      act(x) = x where x ≥ 0, slope · x elsewhere.
  The kernel computes the two products and the activations in three pipelined regions, 5000 rows at a time, with
  bf16 operands into an f32 accumulator; the gathers and the sums over edges stay host operations. The reference
  is the same composition in whole-array host operations.

  At the ideal values a change of float format is the identity and a product into the zero accumulator is the
  plain sum over the contracted index, so each region's result array is one whole-array function of the arrays
  it reads: the rows a grid point writes depend on the same rows of the operand only, and the written blocks
  tile the array. The reference's `dot_general`s are the same sums, its `where`s the same activation, and the
  gather-and-sum between the layers is the same thirteen operations in both programs, carried as one function.
  No algebraic law beyond this re-reading is needed, so the inputs' finiteness is not used.

  The ideal pass rewrote nothing, so `preserves` is trivial; the kernel's two frames are the generated ones and
  the reference's frame is its generated run with the result dropped.
-/
import proofs.«125440_j87892210746076_1_alg».proof.Defs
import proofs.«125440_j87892210746076_1_alg».proof.Proof.Gen.Kernel
import proofs.«125440_j87892210746076_1_alg».proof.Proof.Gen.Kernel.Skeleton
import proofs.«125440_j87892210746076_1_alg».proof.Proof.Gen.Kernel.Launch
import proofs.«125440_j87892210746076_1_alg».proof.Proof.Gen.Kernel.Points
import proofs.«125440_j87892210746076_1_alg».proof.Proof.Gen.Kernel.Frame
import proofs.«125440_j87892210746076_1_alg».proof.Proof.Gen.KernelIdeal
import proofs.«125440_j87892210746076_1_alg».proof.Proof.Gen.KernelIdeal.Skeleton
import proofs.«125440_j87892210746076_1_alg».proof.Proof.Gen.KernelIdeal.Launch
import proofs.«125440_j87892210746076_1_alg».proof.Proof.Gen.KernelIdeal.Points
import proofs.«125440_j87892210746076_1_alg».proof.Proof.Gen.KernelIdeal.Frame
import proofs.«125440_j87892210746076_1_alg».proof.Proof.Gen.ReferenceIdeal
import proofs.«125440_j87892210746076_1_alg».proof.Proof.Gen.ReferenceIdeal.Run
import proofs.«125440_j87892210746076_1_alg».proof.Proof.Gen.ReferenceIdeal.Read
import proofs.«125440_j87892210746076_1_alg».proof.Proof.Gen.Pre_finite_inputs
import proofs.«125440_j87892210746076_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at one function of the
    arguments: the kernel's run read through its three regions and two host stretches, the reference's run read
    stage by stage. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2]
  exact Cert.Proof.Bridge.ref_eq_spec _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
